-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128x64 : Shape := ⟨4, ![16, 128, 128, 64]⟩
abbrev S_ : Shape := ⟨0, ![]⟩

class Facts : Prop where
  bcast_S_S16x128x128x64 : S_.BroadcastsInDim S16x128x128x64 (![] : Fin 0 → Fin S16x128x128x64.rank)
  reducesTo_S16x128x128x64_S_d0_1_2_3 : S16x128x128x64.ReducesTo [0, 1, 2, 3] S_
  h_S_ : 0 < S_.numel

variable [Facts]

def fn {F : FTy → Type} [FloatOps F] (main_arg0 : FVec F S16x128x128x64 .f32) : IVec S_ 1 :=
  let main_v0 : FVec F S16x128x128x64 .f32 := Host.absf main_arg0
  let main_cst : FVec F S_ .f32 := constant S_ .f32 0x7F800000#32
  let main_v1 : FVec F S16x128x128x64 .f32 := broadcastInDim S16x128x128x64 ![] bcast_S_S16x128x128x64 main_cst
  let main_v2 : IVec S16x128x128x64 1 := cmpf .olt main_v0 main_v1
  let main_c : IVec S_ 1 := constantI S_ 1 1#1
  let main_v3 : IVec S_ 1 := (fun x v => Host.reduce IntOp.andi x v reducesTo_S16x128x128x64_S_d0_1_2_3 h_S_) main_v2 main_c
  main_v3
-- ==== Kernel.lean ====
abbrev S16x128x128x64 : Shape := ⟨4, ![16, 128, 128, 64]⟩
abbrev S16x128x8192 : Shape := ⟨3, ![16, 128, 8192]⟩
abbrev S16x126x126x576 : Shape := ⟨4, ![16, 126, 126, 576]⟩
abbrev S1x128x8192 : Shape := ⟨3, ![1, 128, 8192]⟩
abbrev S1x42x126x576 : Shape := ⟨4, ![1, 42, 126, 576]⟩
abbrev S1x42x8064 : Shape := ⟨3, ![1, 42, 8064]⟩
abbrev S42x8064 : Shape := ⟨2, ![42, 8064]⟩
abbrev S42x126x64 : Shape := ⟨3, ![42, 126, 64]⟩
abbrev S42x126x128 : Shape := ⟨3, ![42, 126, 128]⟩
abbrev S1x42x126x128 : Shape := ⟨4, ![1, 42, 126, 128]⟩
abbrev S1x42x126x64 : Shape := ⟨4, ![1, 42, 126, 64]⟩

abbrev nBuf : Space → Nat
  | .hbm => 3
  | .vmem => 4
  | .smem => 0
  | _ => 0

abbrev bufTy : (tb : Table) → Fin (tcTables nBuf tb) → BufTy
  | .hbm, ⟨0, _⟩ => ⟨S16x128x128x64, .f32⟩
  | .hbm, ⟨1, _⟩ => ⟨S16x128x8192, .f32⟩
  | .hbm, ⟨2, _⟩ => ⟨S16x126x126x576, .f32⟩
  | .local _ .vmem, ⟨0, _⟩ => ⟨S1x128x8192, .f32⟩
  | .local _ .vmem, ⟨1, _⟩ => ⟨S1x128x8192, .f32⟩
  | .local _ .vmem, ⟨2, _⟩ => ⟨S1x42x126x576, .f32⟩
  | .local _ .vmem, ⟨3, _⟩ => ⟨S1x42x126x576, .f32⟩
  | _, _ => ⟨S16x128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 3], ![false, false]⟩

def k0_off1 (i : grid0.Coords) (c0_i32 : BitVec 32) : Fin 3 → Nat :=
  let c0 : Index := 0#32
  let arg1 : BitVec 32 := BitVec.ofNat 32 (i 1).val
  let c42_i32 : BitVec 32 := 42#32
  let v0 : BitVec 32 := Scalar.muli arg1 c42_i32
  let v1 : BitVec 32 := Scalar.addi v0 c0_i32
  let v2 : Index := Scalar.indexCast v1
  let c0_0 : Index := 0#32
  ![0, v2.toNat, 0]
def k0_off2 (i : grid0.Coords) (c0_i32_1 : BitVec 32) : Fin 3 → Nat :=
  let c0_2 : Index := 0#32
  let arg1 : BitVec 32 := BitVec.ofNat 32 (i 1).val
  let c42_i32 : BitVec 32 := 42#32
  let v0 : BitVec 32 := Scalar.muli arg1 c42_i32
  let v6 : BitVec 32 := Scalar.addi v0 c0_i32_1
  let v7 : Index := Scalar.indexCast v6
  let c64 : Index := 64#32
  ![0, v7.toNat, 64]
def k0_off3 (i : grid0.Coords) (c0_i32_7 : BitVec 32) : Fin 3 → Nat :=
  let c0_8 : Index := 0#32
  let arg1 : BitVec 32 := BitVec.ofNat 32 (i 1).val
  let c42_i32 : BitVec 32 := 42#32
  let v0 : BitVec 32 := Scalar.muli arg1 c42_i32
  let v15 : BitVec 32 := Scalar.addi v0 c0_i32_7
  let v16 : Index := Scalar.indexCast v15
  let c128 : Index := 128#32
  ![0, v16.toNat, 128]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x42x126x576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S16x128x128x64_S16x128x8192 : S16x128x128x64.ShapeCasts S16x128x8192
  h_S1x42x8064 : 0 < S1x42x8064.numel
  shapeCasts_S1x42x8064_S42x8064 : S1x42x8064.ShapeCasts S42x8064
  shapeCasts_S42x8064_S42x126x64 : S42x8064.ShapeCasts S42x126x64
  concatenates_S42x126x64_S42x126x64_S42x126x128_d2 : Shape.Concatenates [S42x126x64, S42x126x64] S42x126x128 2
  inb_S1x42x126x576_S1x42x126x128_0_0_0_0 : ∀ a, (![0, 0, 0, 0] : Fin 4 → Nat) a + S1x42x126x128.size a ≤ S1x42x126x576.size a
  h_S1x42x126x128 : 0 < S1x42x126x128.numel
  shapeCasts_S1x42x126x128_S42x126x128 : S1x42x126x128.ShapeCasts S42x126x128
  shapeCasts_S42x126x128_S1x42x126x128 : S42x126x128.ShapeCasts S1x42x126x128
  inb_S1x42x126x576_S1x42x126x128_0_0_0_128 : ∀ a, (![0, 0, 0, 128] : Fin 4 → Nat) a + S1x42x126x128.size a ≤ S1x42x126x576.size a
  inb_S1x42x126x576_S1x42x126x128_0_0_0_256 : ∀ a, (![0, 0, 0, 256] : Fin 4 → Nat) a + S1x42x126x128.size a ≤ S1x42x126x576.size a
  inb_S1x42x126x576_S1x42x126x128_0_0_0_384 : ∀ a, (![0, 0, 0, 384] : Fin 4 → Nat) a + S1x42x126x128.size a ≤ S1x42x126x576.size a
  inb_S1x42x126x576_S1x42x126x64_0_0_0_512 : ∀ a, (![0, 0, 0, 512] : Fin 4 → Nat) a + S1x42x126x64.size a ≤ S1x42x126x576.size a
  h_S1x42x126x64 : 0 < S1x42x126x64.numel
  shapeCasts_S1x42x126x64_S42x126x64 : S1x42x126x64.ShapeCasts S42x126x64
  shapeCasts_S42x126x64_S1x42x126x64 : S42x126x64.ShapeCasts S1x42x126x64
  hrank0 : 0 < grid0.rank
  k0_off1_inb : ∀ i : grid0.Coords, ∀ (r : Fin 3), ∀ a, (k0_off1 i (BitVec.ofNat 32 r.val)) a + S1x42x8064.size a ≤ S1x128x8192.size a
  k0_off2_inb : ∀ i : grid0.Coords, ∀ (r : Fin 3), ∀ a, (k0_off2 i (BitVec.ofNat 32 r.val)) a + S1x42x8064.size a ≤ S1x128x8192.size a
  k0_off3_inb : ∀ i : grid0.Coords, ∀ (r : Fin 3), ∀ a, (k0_off3 i (BitVec.ofNat 32 r.val)) a + S1x42x8064.size a ≤ S1x128x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x8192.size a ≤ S16x128x8192.size a
  hwx0_0 : ∀ i : grid0.Coords, EltTy.bits .f32 = 32 ∨ (Rect.block (s := S16x128x8192) S1x128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x42x126x576.size a ≤ S16x126x126x576.size a
  hwx0_1 : ∀ i : grid0.Coords, EltTy.bits .f32 = 32 ∨ (Rect.block (s := S16x126x126x576) S1x42x126x576.size (cc0_transform_1 i) (hinb0_1 i)).WholeWords (EltTy.packing .f32)

variable [Facts₀]

abbrev win0_0 : Pipeline.Window sig grid0 :=
  Pipeline.Window.ofSpec (Memref.whole main_v0) S1x128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x42x126x576.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x128x128x64 : Shape := ⟨4, ![16, 128, 128, 64]⟩
abbrev S16x126x126x64 : Shape := ⟨4, ![16, 126, 126, 64]⟩
abbrev S16x126x126x576 : Shape := ⟨4, ![16, 126, 126, 576]⟩

abbrev nBuf : Space → Nat
  | .hbm => 11
  | .vmem => 0
  | .smem => 0
  | _ => 0

abbrev bufTy : (tb : Table) → Fin (tcTables nBuf tb) → BufTy
  | .hbm, ⟨0, _⟩ => ⟨S16x128x128x64, .f32⟩
  | .hbm, ⟨1, _⟩ => ⟨S16x126x126x64, .f32⟩
  | .hbm, ⟨2, _⟩ => ⟨S16x126x126x64, .f32⟩
  | .hbm, ⟨3, _⟩ => ⟨S16x126x126x64, .f32⟩
  | .hbm, ⟨4, _⟩ => ⟨S16x126x126x64, .f32⟩
  | .hbm, ⟨5, _⟩ => ⟨S16x126x126x64, .f32⟩
  | .hbm, ⟨6, _⟩ => ⟨S16x126x126x64, .f32⟩
  | .hbm, ⟨7, _⟩ => ⟨S16x126x126x64, .f32⟩
  | .hbm, ⟨8, _⟩ => ⟨S16x126x126x64, .f32⟩
  | .hbm, ⟨9, _⟩ => ⟨S16x126x126x64, .f32⟩
  | .hbm, ⟨10, _⟩ => ⟨S16x126x126x576, .f32⟩
  | _, _ => ⟨S16x128x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩

abbrev nD : Nat := 1
abbrev τ : Topo := Topo.v7x

variable {F : FTy → Type} [FloatOps F]

class Facts₀ : Prop where
  slices_S16x128x128x64_S16x126x126x64_0_0_0_0 : S16x128x128x64.Slices ![0, 0, 0, 0] S16x126x126x64
  slices_S16x128x128x64_S16x126x126x64_0_0_1_0 : S16x128x128x64.Slices ![0, 0, 1, 0] S16x126x126x64
  slices_S16x128x128x64_S16x126x126x64_0_0_2_0 : S16x128x128x64.Slices ![0, 0, 2, 0] S16x126x126x64
  slices_S16x128x128x64_S16x126x126x64_0_1_0_0 : S16x128x128x64.Slices ![0, 1, 0, 0] S16x126x126x64
  slices_S16x128x128x64_S16x126x126x64_0_1_1_0 : S16x128x128x64.Slices ![0, 1, 1, 0] S16x126x126x64
  slices_S16x128x128x64_S16x126x126x64_0_1_2_0 : S16x128x128x64.Slices ![0, 1, 2, 0] S16x126x126x64
  slices_S16x128x128x64_S16x126x126x64_0_2_0_0 : S16x128x128x64.Slices ![0, 2, 0, 0] S16x126x126x64
  slices_S16x128x128x64_S16x126x126x64_0_2_1_0 : S16x128x128x64.Slices ![0, 2, 1, 0] S16x126x126x64
  slices_S16x128x128x64_S16x126x126x64_0_2_2_0 : S16x128x128x64.Slices ![0, 2, 2, 0] S16x126x126x64
  concatenates_S16x126x126x64_S16x126x126x64_S16x126x126x64_S16x126x126x64_S16x126x126x64_S16x126x126x64_S16x126x126x64_S16x126x126x64_S16x126x126x64_S16x126x126x576_d3 : Shape.Concatenates [S16x126x126x64, S16x126x126x64, S16x126x126x64, S16x126x126x64, S16x126x126x64, S16x126x126x64, S16x126x126x64, S16x126x126x64, S16x126x126x64] S16x126x126x576 3

variable [Facts₀]

class Facts : Prop extends Facts₀ where

variable [Facts]
-- ==== Proof.BodyPayload.lean ====
/-
  What the kernel body stores, read entry by entry. The body holds one batch's input as a slab [1, 128, 8192]
  (columns and channels merged) and fills its output block [1, 42, 126, 576] by five stores. A store's value is
  built from row slabs [1, 42, 8064] loaded from the resident input: a row slab is re-laid as [42, 126, 64] —
  entry (r, w, c) is the slab's entry (0, r, 64·w + c) —, two such are joined along the channel axis into
  [42, 126, 128] for each of the first four stores, and one alone makes the fifth.
-/
import proofs.«151190_j41154376631133_2_alg».proof.Proof.Gen.KernelIdeal.Skeleton
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx

variable {F : FTy → Type} [FloatOps F]

/-- A row slab re-laid as rows × columns × channels: entry (r, w, c) is the slab's entry (0, r, 64·w + c). -/
theorem relaid_apply (u : Vec F S1x42x8064 .f32) (r : Fin 42) (w : Fin 126) (c : Fin 64) :
    shapeCast S42x126x64 (shapeCast S42x8064 u shapeCasts_S1x42x8064_S42x8064) shapeCasts_S42x8064_S42x126x64 (ix3 r w c)
      = u (ix3 (0 : Fin 1) r (⟨64 * w.val + c.val, by omega⟩ : Fin 8064)) := by
  refine (shapeCast_apply _ _ (ix3 r w c) (ix2 r (⟨64 * w.val + c.val, by omega⟩ : Fin 8064)) ?_).trans ?_
  · rw [Shape.rowMajor_val_two, Shape.rowMajor_val_three]
    show r.val * 8064 + (64 * w.val + c.val) = (r.val * 126 + w.val) * 64 + c.val
    omega
  · refine shapeCast_apply _ _ _ _ ?_
    rw [Shape.rowMajor_val_three, Shape.rowMajor_val_two]
    show (0 * 42 + r.val) * 8064 + (64 * w.val + c.val) = r.val * 8064 + (64 * w.val + c.val)
    omega

/-- The first store's value at a channel of its first half: the first slab's entry. -/
theorem pair_apply_lo (u v : Vec F S1x42x8064 .f32) (r : Fin 42) (w : Fin 126) (l : Fin 128) (hl : l.val < 64) :
    k0_pay1 u v (ix4 (0 : Fin 1) r w l) = u (ix3 (0 : Fin 1) r (⟨64 * w.val + l.val, by omega⟩ : Fin 8064)) := by
  unfold k0_pay1
  refine (shapeCast_apply _ _ (ix4 (0 : Fin 1) r w l) (ix3 r w l) ?_).trans ?_
  · rw [Shape.rowMajor_val_three, Shape.rowMajor_val_four]
    show (r.val * 126 + w.val) * 128 + l.val = ((0 * 42 + r.val) * 126 + w.val) * 128 + l.val
    omega
  · refine (concatenate_pair_apply_left (t := S42x126x128) (s₁ := S42x126x64) (s₂ := S42x126x64) 2 _ _ _ (ix3 r w l) rfl (ix3 r w (⟨l.val, hl⟩ : Fin 64)) ?_).trans ?_
    · intro b
      match b with
      | ⟨0, _⟩ => rfl
      | ⟨1, _⟩ => rfl
      | ⟨2, _⟩ => rfl
    · exact relaid_apply u r w ⟨l.val, hl⟩

/-- The first store's value at a channel of its second half: the second slab's entry, 64 channels back. -/
theorem pair_apply_hi (u v : Vec F S1x42x8064 .f32) (r : Fin 42) (w : Fin 126) (l : Fin 128) (hl : 64 ≤ l.val) :
    k0_pay1 u v (ix4 (0 : Fin 1) r w l) = v (ix3 (0 : Fin 1) r (⟨64 * w.val + (l.val - 64), by omega⟩ : Fin 8064)) := by
  unfold k0_pay1
  refine (shapeCast_apply _ _ (ix4 (0 : Fin 1) r w l) (ix3 r w l) ?_).trans ?_
  · rw [Shape.rowMajor_val_three, Shape.rowMajor_val_four]
    show (r.val * 126 + w.val) * 128 + l.val = ((0 * 42 + r.val) * 126 + w.val) * 128 + l.val
    omega
  · refine (concatenate_pair_apply_right (t := S42x126x128) (s₁ := S42x126x64) (s₂ := S42x126x64) 2 _ _ _ (ix3 r w l) rfl rfl (ix3 r w (⟨l.val - 64, by omega⟩ : Fin 64)) ?_ ?_).trans ?_
    · intro b hb
      match b, hb with
      | ⟨0, _⟩, _ => rfl
      | ⟨1, _⟩, _ => rfl
      | ⟨2, _⟩, hb => exact absurd rfl hb
    · show l.val - 64 + 64 = l.val
      omega
    · exact relaid_apply v r w ⟨l.val - 64, by omega⟩

/-- The second, third and fourth stores' values are built as the first's is. -/
theorem pay2_eq (u v : Vec F S1x42x8064 .f32) : k0_pay2 u v = k0_pay1 u v := rfl
theorem pay3_eq (u v : Vec F S1x42x8064 .f32) : k0_pay3 u v = k0_pay1 u v := rfl
theorem pay4_eq (u v : Vec F S1x42x8064 .f32) : k0_pay4 u v = k0_pay1 u v := rfl

/-- The fifth store's value: one slab re-laid. -/
theorem single_apply (u : Vec F S1x42x8064 .f32) (r : Fin 42) (w : Fin 126) (l : Fin 64) :
    k0_pay5 u (ix4 (0 : Fin 1) r w l) = u (ix3 (0 : Fin 1) r (⟨64 * w.val + l.val, by omega⟩ : Fin 8064)) := by
  unfold k0_pay5
  refine (shapeCast_apply _ _ (ix4 (0 : Fin 1) r w l) (ix3 r w l) ?_).trans ?_
  · rw [Shape.rowMajor_val_three, Shape.rowMajor_val_four]
    show (r.val * 126 + w.val) * 64 + l.val = ((0 * 42 + r.val) * 126 + w.val) * 64 + l.val
    omega
  · exact relaid_apply u r w l

end Cert.KernelIdeal.Body

end
-- ==== Proof.BodyTile.lean ====
/-
  The block one grid point leaves. At a point with row-tile coordinate h the body reads nine row slabs of the
  resident input slab X : [1, 128, 8192] — slab p = 3·i + j starts at row 42·h + i and merged column 64·j — and
  stores them, re-laid, side by side along the channel axis of the output block [1, 42, 126, 576]: the block's
  entry (0, r, w, ch) is X's entry (0, 42·h + ch / 64 / 3 + r, 64·(ch / 64 % 3) + 64·w + ch % 64). The five
  stores tile the block, and each one's value is that function under its rectangle.
-/
import proofs.«151190_j41154376631133_2_alg».proof.Proof.Gen.KernelIdeal.Frame
import proofs.«151190_j41154376631133_2_alg».proof.Proof.BodyPayload
import Idealize.ShloMosaic.Lib.Tactic

noncomputable section

namespace Cert.KernelIdeal.Body

open Cert.KernelIdeal Cert.KernelIdeal.Gen Idealize.ShloMosaic Idealize.ShloMosaic.TcCoe Idealize.ShloMosaic.ValueIdx
open Idealize.SL.Sem

variable {F : FTy → Type} [FloatOps F]

/-- The output block's entry at row r, window column w, channel ch, at row tile h, from the resident slab X. -/
def tileAt (h : Fin 3) (X : Vec F S1x128x8192 .f32) (r : Fin 42) (w : Fin 126) (ch : Fin 576) : Elt F .f32 :=
  X (ix3 (0 : Fin 1) (⟨42 * h.val + ch.val / 64 / 3 + r.val, by omega⟩ : Fin 128)
    (⟨64 * (ch.val / 64 % 3) + 64 * w.val + ch.val % 64, by omega⟩ : Fin 8192))

/-- The output block at row tile h, from the resident slab X. -/
def tile (h : Fin 3) (X : Vec F S1x128x8192 .f32) : Vec F S1x42x126x576 .f32 := fun y => tileAt h X (y 1) (y 2) (y 3)

/-- A row slab loaded from the resident slab at offsets (0, R, K), read at (0, r, k): the slab's entry (0, R + r, K + k). -/
theorem ld_apply (X : Vec F S1x128x8192 .f32) (off : Fin 3 → Nat) (inb : ∀ a, off a + S1x42x8064.size a ≤ S1x128x8192.size a)
    (R K : Nat) (hoff : off = ![0, R, K]) (hR : R + 42 ≤ 128) (hK : K + 8064 ≤ 8192) (r : Fin 42) (k : Fin 8064) :
    View.ld X (Rect.unit (s := S1x128x8192) off S1x42x8064.size inb) (ix3 (0 : Fin 1) r k)
      = X (ix3 (0 : Fin 1) (⟨R + r.val, by omega⟩ : Fin 128) (⟨K + k.val, by omega⟩ : Fin 8192)) := by
  subst hoff
  refine congrArg X (funext fun a => Fin.ext ?_)
  match a with
  | ⟨0, _⟩ => show 0 + 1 * 0 = 0; rfl
  | ⟨1, _⟩ => show R + 1 * r.val = R + r.val; omega
  | ⟨2, _⟩ => show K + 1 * k.val = K + k.val; omega

/-- Store k of the first four (k = 0 … 3) writes channels 128·k … 128·k + 127: slabs 2·k and 2·k + 1 side by side,
    which is the block's function under the store's rectangle. -/
theorem pair_piece (X : Vec F S1x128x8192 .f32) (h : Fin 3) (k : Nat) (hk : k < 4)
    (offu offv : Fin 3 → Nat) (inbu : ∀ a, offu a + S1x42x8064.size a ≤ S1x128x8192.size a)
    (inbv : ∀ a, offv a + S1x42x8064.size a ≤ S1x128x8192.size a)
    (hu : offu = ![0, 42 * h.val + 2 * k / 3, 64 * (2 * k % 3)])
    (hv : offv = ![0, 42 * h.val + (2 * k + 1) / 3, 64 * ((2 * k + 1) % 3)])
    (offo : Fin 4 → Nat) (inbo : ∀ a, offo a + S1x42x126x128.size a ≤ S1x42x126x576.size a)
    (ho : offo = ![0, 0, 0, 128 * k]) (x : S1x42x126x128.Idx) :
    k0_pay1 (View.ld X (Rect.unit (s := S1x128x8192) offu S1x42x8064.size inbu)) (View.ld X (Rect.unit (s := S1x128x8192) offv S1x42x8064.size inbv)) x
      = tile h X ((Rect.unit (s := S1x42x126x576) offo S1x42x126x128.size inbo).emb x) := by
  subst ho
  obtain ⟨z, r, w, l, rfl⟩ : ∃ (z : Fin 1) (r : Fin 42) (w : Fin 126) (l : Fin 128), x = ix4 z r w l :=
    ⟨x 0, x 1, x 2, x 3, eq_ix4 x⟩
  obtain rfl : z = 0 := Subsingleton.elim _ _
  have hh : h.val < 3 := h.isLt
  by_cases hl : l.val < 64
  · refine (pair_apply_lo _ _ r w l hl).trans ?_
    refine (ld_apply X offu inbu _ _ hu (by omega) (by omega) r _).trans ?_
    refine congrArg X (funext fun a => Fin.ext ?_)
    match a with
    | ⟨0, _⟩ => rfl
    | ⟨1, _⟩ =>
      show 42 * h.val + 2 * k / 3 + r.val = 42 * h.val + (128 * k + 1 * l.val) / 64 / 3 + (0 + 1 * r.val)
      omega
    | ⟨2, _⟩ =>
      show 64 * (2 * k % 3) + (64 * w.val + l.val)
        = 64 * ((128 * k + 1 * l.val) / 64 % 3) + 64 * (0 + 1 * w.val) + (128 * k + 1 * l.val) % 64
      omega
  · refine (pair_apply_hi _ _ r w l (by omega)).trans ?_
    refine (ld_apply X offv inbv _ _ hv (by omega) (by omega) r _).trans ?_
    refine congrArg X (funext fun a => Fin.ext ?_)
    match a with
    | ⟨0, _⟩ => rfl
    | ⟨1, _⟩ =>
      show 42 * h.val + (2 * k + 1) / 3 + r.val = 42 * h.val + (128 * k + 1 * l.val) / 64 / 3 + (0 + 1 * r.val)
      omega
    | ⟨2, _⟩ =>
      show 64 * ((2 * k + 1) % 3) + (64 * w.val + (l.val - 64))
        = 64 * ((128 * k + 1 * l.val) / 64 % 3) + 64 * (0 + 1 * w.val) + (128 * k + 1 * l.val) % 64
      omega

/-- The fifth store writes channels 512 … 575: slab 8, the block's function under the store's rectangle. -/
theorem single_piece (X : Vec F S1x128x8192 .f32) (h : Fin 3)
    (offu : Fin 3 → Nat) (inbu : ∀ a, offu a + S1x42x8064.size a ≤ S1x128x8192.size a)
    (hu : offu = ![0, 42 * h.val + 2, 128])
    (offo : Fin 4 → Nat) (inbo : ∀ a, offo a + S1x42x126x64.size a ≤ S1x42x126x576.size a)
    (ho : offo = ![0, 0, 0, 512]) (x : S1x42x126x64.Idx) :
    k0_pay5 (View.ld X (Rect.unit (s := S1x128x8192) offu S1x42x8064.size inbu)) x
      = tile h X ((Rect.unit (s := S1x42x126x576) offo S1x42x126x64.size inbo).emb x) := by
  subst ho
  obtain ⟨z, r, w, l, rfl⟩ : ∃ (z : Fin 1) (r : Fin 42) (w : Fin 126) (l : Fin 64), x = ix4 z r w l :=
    ⟨x 0, x 1, x 2, x 3, eq_ix4 x⟩
  obtain rfl : z = 0 := Subsingleton.elim _ _
  have hh : h.val < 3 := h.isLt
  refine (single_apply _ r w l).trans ?_
  refine (ld_apply X offu inbu _ _ hu (by omega) (by omega) r _).trans ?_
  refine congrArg X (funext fun a => Fin.ext ?_)
  match a with
  | ⟨0, _⟩ => rfl
  | ⟨1, _⟩ =>
    show 42 * h.val + 2 + r.val = 42 * h.val + (512 + 1 * l.val) / 64 / 3 + (0 + 1 * r.val)
    omega
  | ⟨2, _⟩ =>
    show 128 + (64 * w.val + l.val) = 64 * ((512 + 1 * l.val) / 64 % 3) + 64 * (0 + 1 * w.val) + (512 + 1 * l.val) % 64
    omega

/-- What the body leaves in the output's staging buffer at a grid point i, from the resident slab X: the block
    `tile (i 1) X`. Its five stores cover the block, each with that function's values under its rectangle. -/
theorem out_A (c : Dev nD) (i : grid0.Coords) (a2 : Memref sig .tc .vmem S1x128x8192 .f32) (h2 : a2.IsWhole)
    (a3 : Memref sig .tc .vmem S1x42x126x576 .f32) (h3 : a3.IsWhole) (X : Vec F S1x128x8192 .f32) :
    out0_A_1 c i a2 h2 a3 h3 X = tile (i 1) X := by
  unfold out0_A_1
  rw [View.read_writes_eq_canon _ _ _ (cover0_A_1 c i a2 h2 a3 h3 X)]
  funext y
  refine View.canon_apply_of_pieces (tile (i 1) X) _ ?_ y (cover0_A_1 c i a2 h2 a3 h3 X y)
  unfold kernelRun0_A
  dsimp only
  sl_unfold_words
  intro p hp
  simp only [List.mem_cons, List.not_mem_nil, or_false] at hp
  rcases hp with rfl | rfl | rfl | rfl | rfl
  · intro x
    simp only [View.readAt_eq_ld, h2.read_unread]
    exact single_piece X (i 1) _ _ (k0_off3_eq i ⟨2, by decide⟩) _ _ rfl x
  · intro x
    simp only [View.readAt_eq_ld, h2.read_unread, pay4_eq]
    exact pair_piece X (i 1) 3 (by decide) _ _ _ _ (k0_off1_eq i ⟨2, by decide⟩) (k0_off2_eq i ⟨2, by decide⟩) _ _ rfl x
  · intro x
    simp only [View.readAt_eq_ld, h2.read_unread, pay3_eq]
    exact pair_piece X (i 1) 2 (by decide) _ _ _ _ (k0_off2_eq i ⟨1, by decide⟩) (k0_off3_eq i ⟨1, by decide⟩) _ _ rfl x
  · intro x
    simp only [View.readAt_eq_ld, h2.read_unread, pay2_eq]
    exact pair_piece X (i 1) 1 (by decide) _ _ _ _ (k0_off3_eq i ⟨0, by decide⟩) (k0_off1_eq i ⟨1, by decide⟩) _ _ rfl x
  · intro x
    simp only [View.readAt_eq_ld, h2.read_unread]
    exact pair_piece X (i 1) 0 (by decide) _ _ _ _ (k0_off1_eq i ⟨0, by decide⟩) (k0_off2_eq i ⟨0, by decide⟩) _ _ rfl x

end Cert.KernelIdeal.Body

end
-- ==== Proof.PatchSpec.lean ====
/-
  The function both programs compute: patch extraction. For an input array x over [16, 128, 128, 64],
  the result over [16, 126, 126, 576] holds at (b, y, w, ch), with ch = 64·p + c, p = 3·i + j and i, j < 3,
  the input's entry (b, y + i, w + j, c): the 3 × 3 window of pixels at (y, w), its nine pixels' channels
  laid one after another along the last axis. No arithmetic on the entries: every result entry is one
  input entry, so the statement holds over any type of values.
-/
import Idealize.ShloMosaic.Lib.ValueIdx
import Idealize.ShloMosaic.Lib.Pipeline.Value

noncomputable section

namespace Patches

open Idealize.ShloMosaic Idealize.ShloMosaic.ValueIdx

/-- The input's shape: batch, rows, columns, channels. -/
abbrev SIn : Shape := ⟨4, ![16, 128, 128, 64]⟩
/-- The result's shape: batch, window rows, window columns, nine pixels' channels. -/
abbrev SOut : Shape := ⟨4, ![16, 126, 126, 576]⟩
/-- The input with its columns and channels merged into one axis (row-major: column · 64 + channel). -/
abbrev SFlat : Shape := ⟨3, ![16, 128, 8192]⟩

/-- The input entry a result entry copies: at result channel ch, pixel p = ch / 64 of the window, row offset
    p / 3, column offset p % 3, channel ch % 64. -/
def src (b : Fin 16) (y : Fin 126) (w : Fin 126) (ch : Fin 576) : SIn.Idx :=
  ix4 b (⟨y.val + ch.val / 64 / 3, by omega⟩ : Fin 128) (⟨w.val + ch.val / 64 % 3, by omega⟩ : Fin 128)
    (⟨ch.val % 64, by omega⟩ : Fin 64)

/-- Patch extraction. -/
def patches {α : Type} (x : SIn.Idx → α) : SOut.Idx → α := fun j => x (src (j 0) (j 1) (j 2) (j 3))

theorem patches_apply {α : Type} (x : SIn.Idx → α) (b : Fin 16) (y : Fin 126) (w : Fin 126) (ch : Fin 576) :
    patches x (ix4 b y w ch) = x (src b y w ch) := rfl

/-- Merging the columns and channels of the input into one axis and reading at (b, r, k) reads the input at column
    k / 64, channel k % 64: both name the same row-major position. -/
theorem flat_apply {α : Type} (x : SIn.Idx → α) (h : SIn.ShapeCasts SFlat) (b : Fin 16) (r : Fin 128) (k : Fin 8192) :
    shapeCast SFlat x h (ix3 b r k)
      = x (ix4 b r (⟨k.val / 64, by omega⟩ : Fin 128) (⟨k.val % 64, by omega⟩ : Fin 64)) := by
  refine shapeCast_apply x h (ix3 b r k) _ ?_
  rw [Shape.rowMajor_val_four, Shape.rowMajor_val_three]
  show ((b.val * 128 + r.val) * 128 + k.val / 64) * 64 + k.val % 64 = (b.val * 128 + r.val) * 8192 + k.val
  omega

end Patches

end
-- ==== Proof.KernelPatches.lean ====
/-
  The kernel's result array is patch extraction of its argument. The grid is (batch b, row tile h), 16 × 3
  points. The input window holds batch b's slab of the argument with columns and channels merged: its entry
  (0, r, k) is the argument's entry (b, r, k / 64, k % 64). The body leaves the block whose entry (0, r, w, ch) is
  the slab's entry (0, 42·h + ch / 64 / 3 + r, 64·(ch / 64 % 3) + 64·w + ch % 64), that is the argument's entry
  (b, 42·h + r + ch / 64 / 3, w + ch / 64 % 3, ch % 64); written back as block (b, h, 0, 0) of the result, it is
  the patch function's values at rows 42·h … 42·h + 41 of batch b. The 48 blocks tile the result array.
-/
import proofs.«151190_j41154376631133_2_alg».proof.Proof.Gen.KernelIdeal.Value
import proofs.«151190_j41154376631133_2_alg».proof.Proof.BodyTile
import proofs.«151190_j41154376631133_2_alg».proof.Proof.PatchSpec
import Idealize.ShloMosaic.Lib.StableHlo.Run

noncomputable section

namespace Cert.KernelIdeal.PatchValue

open Cert.KernelIdeal Cert.KernelIdeal.Gen Idealize.ShloMosaic Idealize.ShloMosaic.TcCoe Idealize.ShloMosaic.ValueIdx
open Idealize.SL.Sem Patches
open Idealize.ShloMosaic.Pipeline (Dat)

variable {F : FTy → Type} [FloatOps F]
variable (m : (ℓ : Loc nD τ sig) → Buf (Elt F) ℓ) (ρ : Dev nD → PrngReg)

/-- The array the input window stages is the argument with its columns and channels merged. -/
theorem staged_eq (c : Dev nD) :
    (V m c main_v0 : S16x128x8192.Idx → Elt F .f32)
      = shapeCast S16x128x8192 (m ((c : Thread nD τ).loc main_arg0)) shapeCasts_S16x128x128x64_S16x128x8192 := by
  dsimp only [V, hostOps0]
  after_results
  rfl

/-- The printed index maps over the grid: the input window's block is (b, 0, 0), the output window's (b, h, 0, 0),
    at the point with coordinates (b, h). -/
theorem idx_facts : ∀ t : Fin cfg0.N,
    win0_0.index t (0 : Fin 3) = (grid0.coords t 0).val ∧ win0_0.index t (1 : Fin 3) = 0 ∧ win0_0.index t (2 : Fin 3) = 0
    ∧ win0_1.index t (0 : Fin 4) = (grid0.coords t 0).val ∧ win0_1.index t (1 : Fin 4) = (grid0.coords t 1).val
    ∧ win0_1.index t (2 : Fin 4) = 0 ∧ win0_1.index t (3 : Fin 4) = 0 :=
  (by decide +kernel : ∀ t : Fin grid0.N, _)

/-- Every (batch, row tile) pair is some point's output block. -/
theorem idx_onto : ∀ (b : Fin 16) (h : Fin 3), ∃ t : Fin cfg0.N, win0_1.index t = ![b.val, h.val, 0, 0] :=
  (by decide +kernel : ∀ (b : Fin 16) (h : Fin 3), ∃ t : Fin grid0.N, win0_1.index t = ![b.val, h.val, 0, 0])

/-- The input block at point t, read at (0, r, k): the argument's entry (b, r, k / 64, k % 64), b the point's batch. -/
theorem iblk_apply (c : Dev nD) (t : Fin cfg0.N) (r : Fin 128) (k : Fin 8192) :
    iblk m c 0 t (ix3 (0 : Fin 1) r k)
      = m ((c : Thread nD τ).loc main_arg0)
          (ix4 (grid0.coords t 0) r (⟨k.val / 64, by omega⟩ : Fin 128) (⟨k.val % 64, by omega⟩ : Fin 64)) := by
  obtain ⟨e0, e1, e2, -⟩ := idx_facts t
  unfold iblk
  show V m c main_v0 (((cfg0.win 0).blk t).view.emb (ix3 (0 : Fin 1) r k)) = _
  rw [staged_eq]
  refine (congrArg _ (?_ : ((cfg0.win 0).blk t).view.emb (ix3 (0 : Fin 1) r k) = ix3 (grid0.coords t 0) r k)).trans
    (flat_apply _ _ _ r k)
  funext a
  apply Fin.ext
  match a with
  | ⟨0, _⟩ => show win0_0.index t (0 : Fin 3) * 1 + 1 * 0 = (grid0.coords t 0).val; omega
  | ⟨1, _⟩ => show win0_0.index t (1 : Fin 3) * 128 + 1 * r.val = r.val; omega
  | ⟨2, _⟩ => show win0_0.index t (2 : Fin 3) * 8192 + 1 * k.val = k.val; omega

/-- What point t writes back is block t of the patch function of the argument. -/
theorem flushed_eq (c : Dev nD) (t : Fin cfg0.N) :
    (dats m 0 c).flushed 1 t
      = ((cfg0.win 1).blk t).view.read (Elt F) (patches (m ((c : Thread nD τ).loc main_arg0))) := by
  rw [Value.flushed1_A, Body.out_A]
  obtain ⟨-, -, -, e3, e4, e5, e6⟩ := idx_facts t
  funext y
  have y0 : (y 0).val < 1 := (y 0).isLt
  have y1 : (y 1).val < 42 := (y 1).isLt
  have y2 : (y 2).val < 126 := (y 2).isLt
  have y3 : (y 3).val < 576 := (y 3).isLt
  have hb : (grid0.coords t 0).val < 16 := (grid0.coords t 0).isLt
  have hh : (grid0.coords t 1).val < 3 := (grid0.coords t 1).isLt
  show iblk m c 0 t (ix3 (0 : Fin 1)
      (⟨42 * (grid0.coords t 1).val + (y 3).val / 64 / 3 + (y 1).val, by omega⟩ : Fin 128)
      (⟨64 * ((y 3).val / 64 % 3) + 64 * (y 2).val + (y 3).val % 64, by omega⟩ : Fin 8192))
    = m ((c : Thread nD τ).loc main_arg0) (src _ _ _ _)
  rw [iblk_apply]
  refine congrArg _ (funext fun a => Fin.ext ?_)
  match a with
  | ⟨0, _⟩ =>
    show (grid0.coords t 0).val = win0_1.index t (0 : Fin 4) * 1 + 1 * (y 0).val
    omega
  | ⟨1, _⟩ =>
    show 42 * (grid0.coords t 1).val + (y 3).val / 64 / 3 + (y 1).val
      = win0_1.index t (1 : Fin 4) * 42 + 1 * (y 1).val + (win0_1.index t (3 : Fin 4) * 576 + 1 * (y 3).val) / 64 / 3
    omega
  | ⟨2, _⟩ =>
    show (64 * ((y 3).val / 64 % 3) + 64 * (y 2).val + (y 3).val % 64) / 64
      = win0_1.index t (2 : Fin 4) * 126 + 1 * (y 2).val + (win0_1.index t (3 : Fin 4) * 576 + 1 * (y 3).val) / 64 % 3
    omega
  | ⟨3, _⟩ =>
    show (64 * ((y 3).val / 64 % 3) + 64 * (y 2).val + (y 3).val % 64) % 64
      = (win0_1.index t (3 : Fin 4) * 576 + 1 * (y 3).val) % 64
    omega

/-- An index of the result array is in point t's block iff each coordinate is in the block's range on its axis. -/
theorem mem_blk (t : Fin cfg0.N) (i : S16x126x126x576.Idx) :
    i ∈ ((cfg0.win 1).blk t).view.set ↔ ∀ a : Fin 4, win0_1.index t a * S1x42x126x576.size a ≤ (i a).val
      ∧ (i a).val < win0_1.index t a * S1x42x126x576.size a + S1x42x126x576.size a := by
  show i ∈ ((View.whole main_v1).slice (win0_1.rect t)).set ↔ _
  rw [View.set_slice_whole, Rect.mem_set_unit]
  exact Iff.rfl

/-- The blocks tile the result array: the entry (b, y, w, ch) is in the block of the point (b, y / 42). -/
theorem cover (i : S16x126x126x576.Idx) :
    ∃ t : Fin cfg0.N, (cfg0.win 1).flush t = true ∧ i ∈ ((cfg0.win 1).blk t).view.set := by
  have i0 : (i 0).val < 16 := (i 0).isLt
  have i1 : (i 1).val < 126 := (i 1).isLt
  have i2 : (i 2).val < 126 := (i 2).isLt
  have i3 : (i 3).val < 576 := (i 3).isLt
  obtain ⟨t, ht⟩ := idx_onto ⟨(i 0).val, i0⟩ ⟨(i 1).val / 42, by omega⟩
  have q0 : win0_1.index t (0 : Fin 4) = (i 0).val := congrFun ht 0
  have q1 : win0_1.index t (1 : Fin 4) = (i 1).val / 42 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 42 ≤ (i 1).val ∧ (i 1).val < win0_1.index t (1 : Fin 4) * 42 + 42; omega
  | ⟨2, _⟩ => show win0_1.index t (2 : Fin 4) * 126 ≤ (i 2).val ∧ (i 2).val < win0_1.index t (2 : Fin 4) * 126 + 126; omega
  | ⟨3, _⟩ => show win0_1.index t (3 : Fin 4) * 576 ≤ (i 3).val ∧ (i 3).val < win0_1.index t (3 : Fin 4) * 576 + 576; omega

/-- The result array after the run: the patch function of the argument. -/
theorem final (c : Dev nD) :
    (dats m 0 c).arrAt 1 cfg0.N = patches (m ((c : Thread nD τ).loc main_arg0)) :=
  (dats m 0 c).arrAt_eq_of_cover 1 (patches (m ((c : Thread nD τ).loc main_arg0)))
    (fun t _ => flushed_eq m c t) cover

/-- The kernel's run: every weakly fair execution terminates with the result array at the patch function of the
    argument, the argument unchanged. -/
theorem run : θ_run defs (onTc (τ := τ) (main (F := F))) ⟨m, fun _ => 0, ρ⟩ fun r => ∀ c : Dev nD,
      r.2.mem ((c : Thread nD τ).loc main_v1) = patches (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.PatchValue

end
-- ==== Proof.RefPatches.lean ====
/-
  The reference is patch extraction. It slices the input nine times — slice n is the input shifted by n / 3
  rows and n % 3 columns, cut to [16, 126, 126, 64] — and joins the nine slices along the channel axis. At
  result channel ch the joined array reads slice ch / 64 at channel ch % 64: the input's entry
  (b, y + ch / 64 / 3, w + ch / 64 % 3, ch % 64).
-/
import proofs.«151190_j41154376631133_2_alg».proof.Proof.Gen.ReferenceIdeal.Read
import proofs.«151190_j41154376631133_2_alg».proof.Proof.PatchSpec

noncomputable section

namespace Cert.ReferenceIdeal.RefValue

open Cert.ReferenceIdeal Cert.ReferenceIdeal.Gen Idealize.ShloMosaic Idealize.ShloMosaic.ValueIdx Patches

variable {F : FTy → Type} [FloatOps F]

/-- Each of the nine shifts stays inside the input. -/
theorem shift_slices : ∀ n : Fin 9, S16x128x128x64.Slices ![0, n.val / 3, n.val % 3, 0] S16x126x126x64 := by decide

/-- Pixel n of every window at once: the input shifted by n / 3 rows and n % 3 columns. -/
def shifted (x0 : S16x128x128x64.Idx → Elt F .f32) (n : Fin 9) : S16x126x126x64.Idx → Elt F .f32 :=
  extractStridedSlice S16x126x126x64 ![0, n.val / 3, n.val % 3, 0] x0 (shift_slices n)

theorem shifted_apply (x0 : S16x128x128x64.Idx → Elt F .f32) (n : Fin 9) (b : Fin 16) (y w : Fin 126) (c : Fin 64) :
    shifted x0 n (ix4 b y w c)
      = x0 (ix4 b (⟨y.val + n.val / 3, by omega⟩ : Fin 128) (⟨w.val + n.val % 3, by omega⟩ : Fin 128) c) := by
  unfold shifted
  refine extractStridedSlice_apply _ x0 _ (ix4 b y w c) _ ?_
  intro a
  match a with
  | ⟨0, _⟩ => show b.val = 0 + b.val; omega
  | ⟨1, _⟩ => show y.val + n.val / 3 = n.val / 3 + y.val; omega
  | ⟨2, _⟩ => show w.val + n.val % 3 = n.val % 3 + w.val; omega
  | ⟨3, _⟩ => show c.val = 0 + c.val; omega

/-- The reference's result is patch extraction of its argument. -/
theorem ref_eq (x0 : S16x128x128x64.Idx → Elt F .f32) : Read.val_main_v9 (F := F) x0 = patches x0 := by
  funext j
  obtain ⟨b, y, w, ch, rfl⟩ : ∃ (b : Fin 16) (y : Fin 126) (w : Fin 126) (ch : Fin 576), j = ix4 b y w ch :=
    ⟨j 0, j 1, j 2, j 3, eq_ix4 j⟩
  rw [patches_apply]
  unfold Read.val_main_v9
  show concatenate S16x126x126x576 3
      (List.ofFn fun n : Fin 9 => (⟨S16x126x126x64, shifted x0 n⟩ : (s : Shape) × (s.Idx → Elt F .f32))) _ (ix4 b y w ch) = _
  refine (concatenate_ofFn_apply (t := S16x126x126x576) (s₁ := S16x126x126x64) 3 (shifted x0) _ rfl 64 rfl (ix4 b y w ch) (⟨ch.val / 64, by omega⟩ : Fin 9) rfl
    (ix4 b y w (⟨ch.val % 64, by omega⟩ : Fin 64)) rfl ?_).trans ?_
  · intro a ha
    match a, ha with
    | ⟨0, _⟩, _ => rfl
    | ⟨1, _⟩, _ => rfl
    | ⟨2, _⟩, _ => rfl
    | ⟨3, _⟩, ha => exact absurd rfl ha
  · exact shifted_apply x0 _ b y w _

end Cert.ReferenceIdeal.RefValue

end
-- ==== Proof.lean ====
/-
  The certificate of a patch-extraction kernel against its jnp reference.

  Both programs take x : f32[16, 128, 128, 64] and return f32[16, 126, 126, 576], the 3 × 3 window of pixels at
  every position, the nine pixels' channels laid along the last axis:
      out[b, y, w, 64·p + c] = x[b, y + p / 3, w + p % 3, c],   p < 9, c < 64.
  The reference slices x nine times and joins the slices along the channels. The kernel merges columns and
  channels of x into one axis, runs a grid of 16 batches × 3 row tiles, holds one batch's slab [1, 128, 8192] in its
  input window, and per point copies nine row slabs of it, re-laid, into the output block [1, 42, 126, 576].
  Every result entry is one argument entry, moved: no arithmetic, so the two results agree on every extended real
  (the infinities included) and the precondition is never opened.

  The three frames are the generated ones (the reference's is its generated run with the result dropped); the
  idealized kernel is the kernel's own text read over the extended reals, so `preserves` has nothing to state;
  `algebraic` sets the kernel's run (PatchValue.run) and the reference's generated run beside each other, both at
  the patch function of the argument.
-/
import proofs.«151190_j41154376631133_2_alg».proof.Defs
import proofs.«151190_j41154376631133_2_alg».proof.Proof.Gen.Kernel
import proofs.«151190_j41154376631133_2_alg».proof.Proof.Gen.Kernel.Skeleton
import proofs.«151190_j41154376631133_2_alg».proof.Proof.Gen.Kernel.Launch
import proofs.«151190_j41154376631133_2_alg».proof.Proof.Gen.Kernel.Points
import proofs.«151190_j41154376631133_2_alg».proof.Proof.Gen.Kernel.Frame
import proofs.«151190_j41154376631133_2_alg».proof.Proof.Gen.KernelIdeal
import proofs.«151190_j41154376631133_2_alg».proof.Proof.Gen.KernelIdeal.Skeleton
import proofs.«151190_j41154376631133_2_alg».proof.Proof.Gen.KernelIdeal.Launch
import proofs.«151190_j41154376631133_2_alg».proof.Proof.Gen.KernelIdeal.Points
import proofs.«151190_j41154376631133_2_alg».proof.Proof.Gen.KernelIdeal.Frame
import proofs.«151190_j41154376631133_2_alg».proof.Proof.Gen.ReferenceIdeal
import proofs.«151190_j41154376631133_2_alg».proof.Proof.Gen.KernelIdeal.Value
import proofs.«151190_j41154376631133_2_alg».proof.Proof.Gen.ReferenceIdeal.Run
import proofs.«151190_j41154376631133_2_alg».proof.Proof.Gen.ReferenceIdeal.Read
import proofs.«151190_j41154376631133_2_alg».proof.Proof.Gen.Pre_finite_inputs
import proofs.«151190_j41154376631133_2_alg».proof.Proof.KernelPatches
import proofs.«151190_j41154376631133_2_alg».proof.Proof.RefPatches
import Idealize.ShloMosaic.Adequacy
import Idealize.ShloMosaic.Init

noncomputable section

namespace Cert.Proof

open Idealize.ShloMosaic Idealize.SL.Sem

/-- The word-level kernel runs and leaves its argument as it found it. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its argument as it found it: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the argument both programs end with the patch function of it in their result. -/
theorem algebraic : Cert.algebraic_KernelIdeal_ReferenceIdeal := by
  intro m ρ m' ρ' _ hagree
  refine ⟨fun c => Patches.patches (m ((c.tc : Thread Cert.KernelIdeal.nD Cert.KernelIdeal.τ).loc Cert.KernelIdeal.main_arg0)),
    Cert.KernelIdeal.PatchValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.ref_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
